-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S256x512 .f32) (main_arg4 : FVec F S256x512 .f32) (main_arg5 : FVec F S512 .f32) (main_arg6 : FVec F S512x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x512 : Shape := ⟨2, ![1, 512]⟩
abbrev S1x256 : Shape := ⟨2, ![1, 256]⟩
abbrev S50000x512 : Shape := ⟨2, ![50000, 512]⟩
abbrev S1024x256 : Shape := ⟨2, ![1024, 256]⟩
abbrev S1024x512 : Shape := ⟨2, ![1024, 512]⟩

abbrev nBuf : Space → Nat
  | .hbm => 38
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x512, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S1x512, .f32⟩
  | .hbm, ⟨35, _⟩ => ⟨S1x256, .f32⟩
  | .hbm, ⟨36, _⟩ => ⟨S50000x256, .f32⟩
  | .hbm, ⟨37, _⟩ => ⟨S50000x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x256, .f32⟩
  | .local _ .vmem, ⟨8, _⟩ => ⟨S1x256, .f32⟩
  | .local _ .vmem, ⟨9, _⟩ => ⟨S1024x256, .f32⟩
  | .local _ .vmem, ⟨10, _⟩ => ⟨S1024x256, .f32⟩
  | .local _ .vmem, ⟨11, _⟩ => ⟨S1024x512, .f32⟩
  | .local _ .vmem, ⟨12, _⟩ => ⟨S1024x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S512_S1x512 : S512.ShapeCasts S1x512
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x256.size a < S50000x256.size a
  hwx0_0 : ∀ i : grid0.Coords, EltTy.bits .f32 = 32 ∨ (Rect.unit (s := S50000x256) (fun a => cc0_transform_0 i a * S1024x256.size a) (fun a => (Pipeline.Clip.of (cc0_transform_0 i a) (S1024x256.size a) (S50000x256.size a)).extent (S1024x256.size a)) fun a => Pipeline.Clip.inb (Pipeline.Clip.ok_of (hstart0_0 i a))).WholeWords (EltTy.packing .f32)
  hwxs0_0 : ∀ i : grid0.Coords, EltTy.bits .f32 = 32 ∨ (Rect.unit (s := S1024x256) (fun _ => 0) (fun a => (Pipeline.Clip.of (cc0_transform_0 i a) (S1024x256.size a) (S50000x256.size a)).extent (S1024x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x256.size a < S50000x256.size a
  hwx0_1 : ∀ i : grid0.Coords, EltTy.bits .f32 = 32 ∨ (Rect.unit (s := S50000x256) (fun a => cc0_transform_1 i a * S1024x256.size a) (fun a => (Pipeline.Clip.of (cc0_transform_1 i a) (S1024x256.size a) (S50000x256.size a)).extent (S1024x256.size a)) fun a => Pipeline.Clip.inb (Pipeline.Clip.ok_of (hstart0_1 i a))).WholeWords (EltTy.packing .f32)
  hwxs0_1 : ∀ i : grid0.Coords, EltTy.bits .f32 = 32 ∨ (Rect.unit (s := S1024x256) (fun _ => 0) (fun a => (Pipeline.Clip.of (cc0_transform_1 i a) (S1024x256.size a) (S50000x256.size a)).extent (S1024x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S1024x256.size a < S50000x256.size a
  hwx0_7 : ∀ i : grid0.Coords, EltTy.bits .f32 = 32 ∨ (Rect.unit (s := S50000x256) (fun a => cc0_transform_7 i a * S1024x256.size a) (fun a => (Pipeline.Clip.of (cc0_transform_7 i a) (S1024x256.size a) (S50000x256.size a)).extent (S1024x256.size a)) fun a => Pipeline.Clip.inb (Pipeline.Clip.ok_of (hstart0_7 i a))).WholeWords (EltTy.packing .f32)
  hwxs0_7 : ∀ i : grid0.Coords, EltTy.bits .f32 = 32 ∨ (Rect.unit (s := S1024x256) (fun _ => 0) (fun a => (Pipeline.Clip.of (cc0_transform_7 i a) (S1024x256.size a) (S50000x256.size a)).extent (S1024x256.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1024x512.size a < S50000x512.size a
  hwx0_8 : ∀ i : grid0.Coords, EltTy.bits .f32 = 32 ∨ (Rect.unit (s := S50000x512) (fun a => cc0_transform_8 i a * S1024x512.size a) (fun a => (Pipeline.Clip.of (cc0_transform_8 i a) (S1024x512.size a) (S50000x512.size a)).extent (S1024x512.size a)) fun a => Pipeline.Clip.inb (Pipeline.Clip.ok_of (hstart0_8 i a))).WholeWords (EltTy.packing .f32)
  hwxs0_8 : ∀ i : grid0.Coords, EltTy.bits .f32 = 32 ∨ (Rect.unit (s := S1024x512) (fun _ => 0) (fun a => (Pipeline.Clip.of (cc0_transform_8 i a) (S1024x512.size a) (S50000x512.size a)).extent (S1024x512.size a)) fun a => (Nat.zero_add _).trans_le (Pipeline.Clip.extent_le (Pipeline.Clip.ok_of (hstart0_8 i a)))).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpecClip (Memref.whole main_arg0) S1024x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S1024x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v20_0) S1024x256.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v20_1) S1024x512.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S50000x512 : Shape := ⟨2, ![50000, 512]⟩
abbrev S1x512 : Shape := ⟨2, ![1, 512]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x512, .f32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x512, .f32⟩
  | .hbm, ⟨35, _⟩ => ⟨S50000x512, .f32⟩
  | .hbm, ⟨36, _⟩ => ⟨S50000x512, .f32⟩
  | .hbm, ⟨37, _⟩ => ⟨S1x512, .f32⟩
  | .hbm, ⟨38, _⟩ => ⟨S50000x512, .f32⟩
  | .hbm, ⟨39, _⟩ => ⟨S50000x512, .f32⟩
  | .hbm, ⟨40, _⟩ => ⟨S_, .f32⟩
  | .hbm, ⟨41, _⟩ => ⟨S50000x512, .f32⟩
  | .hbm, ⟨42, _⟩ => ⟨S50000x512, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x256_S50000x256_1_0_0_1_n_n_wf : DotDims.WF S50000x512 S512x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.BitsBody.lean ====
/-
  The kernel body of the SAGE encoder/decoder on whole staging buffers, at any float instance.

  One grid point loads a block of node features x (1024 x 256), the matching block of mean neighbour features
  (1024 x 256), both encoder weights (256 x 512), the encoder bias row (1 x 512), the decoder weight (512 x 256)
  and the decoder bias row (1 x 256), all as whole buffers; it stores
      h     = max (x W_self + mean W_neigh + b_enc, 0)      (1024 x 512)
      recon = h W_dec + b_dec                               (1024 x 256)
  as whole buffers.  The input buffers are left as found.  Before each store the body also loads the output
  buffer it is about to overwrite; nothing reads that value.
-/
import proofs.«145262_j49563922596249_1_alg».proof.Proof.Gen.Kernel.Frame
import proofs.«145262_j49563922596249_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body accesses -/

abbrev rX : Rect S1024x256 := Rect.unit (s := S1024x256) ![0, 0] S1024x256.size inb_S1024x256_S1024x256_0_0
abbrev rW : Rect S256x512 := Rect.unit (s := S256x512) ![0, 0] S256x512.size inb_S256x512_S256x512_0_0
abbrev rB : Rect S1x512 := Rect.unit (s := S1x512) ![0, 0] S1x512.size inb_S1x512_S1x512_0_0
abbrev rH : Rect S1024x512 := Rect.unit (s := S1024x512) ![0, 0] S1024x512.size inb_S1024x512_S1024x512_0_0
abbrev rD : Rect S512x256 := Rect.unit (s := S512x256) ![0, 0] S512x256.size inb_S512x256_S512x256_0_0
abbrev rC : Rect S1x256 := Rect.unit (s := S1x256) ![0, 0] S1x256.size inb_S1x256_S1x256_0_0

/-! ## What the two stores leave -/

/-- The hidden block h, as the one whole-buffer store leaves it, from the contents of the five input buffers it
    depends on. -/
def hidden (x0 x1 : Vec F S1024x256 .f32) (w2 w3 : Vec F S256x512 .f32) (b4 : Vec F S1x512 .f32) : Vec F S1024x512 .f32 :=
  View.canon [⟨rH, k0_pay1 (View.ld x0 rX) (View.ld x1 rX) (View.ld w2 rW) (View.ld w3 rW) (View.ld b4 rB)⟩]

/-- The reconstruction block, as the one whole-buffer store leaves it, from the contents of all seven input
    buffers. -/
def recon (x0 x1 : Vec F S1024x256 .f32) (w2 w3 : Vec F S256x512 .f32) (b4 : Vec F S1x512 .f32)
    (w5 : Vec F S512x256 .f32) (b6 : Vec F S1x256 .f32) : Vec F S1024x256 .f32 :=
  View.canon [⟨rX, k0_pay2 (View.ld x0 rX) (View.ld x1 rX) (View.ld w2 rW) (View.ld w3 rW) (View.ld b4 rB) (View.ld w5 rD) (View.ld b6 rC)⟩]

/-- A whole-buffer store covers the buffer. -/
theorem cover_hidden (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

theorem cover_recon (p0 : Vec F S1024x256 .f32) (y : S1024x256.Idx) :
    ∃ pc ∈ ([⟨rX, p0⟩] : List (View.Piece (Elt F) S1024x256 .f32)), y ∈ pc.1.set :=
  View.cover_of_tiled [⟨rX, p0⟩] S1024x256.size (by rfl) y

/-! ## The body's triple -/

set_option maxHeartbeats 1000000 in
/-- The body on whole staging buffers: the seven input buffers at contents x0 ... b6, the two output buffers at
    anything; it runs to the end, leaves the inputs as they were, the reconstruction buffer at recon and the
    hidden buffer at hidden of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S256x512 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x512 .f32) (harg9 : arg9.IsWhole)
    (x0 x1 : Vec F S1024x256 .f32) (w2 w3 : Vec F S256x512 .f32) (b4 : Vec F S1x512 .f32)
    (w5 : Vec F S512x256 .f32) (b6 : Vec F S1x256 .f32) (K : PUnit → sProp 𝕄) :
    iprop(owns (c : Thread nD τ) arg1 fullShare x0 ∗ owns (c : Thread nD τ) arg2 fullShare x1
        ∗ owns (c : Thread nD τ) arg3 fullShare w2 ∗ owns (c : Thread nD τ) arg4 fullShare w3
        ∗ owns (c : Thread nD τ) arg5 fullShare b4 ∗ owns (c : Thread nD τ) arg6 fullShare w5
        ∗ owns (c : Thread nD τ) arg7 fullShare b6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare w2 ∗ owns (c : Thread nD τ) arg4 fullShare w3
            ∗ owns (c : Thread nD τ) arg5 fullShare b4 ∗ owns (c : Thread nD τ) arg6 fullShare w5
            ∗ owns (c : Thread nD τ) arg7 fullShare b6
            ∗ owns (c : Thread nD τ) arg8 fullShare (recon x0 x1 w2 w3 b4 w5 b6)
            ∗ owns (c : Thread nD τ) arg9 fullShare (hidden x0 x1 w2 w3 b4)) -∗ K ⟨⟩))
      ⊢ wp frame (wpE (defs₀ (F := F)) Variants.none c none) E
          (cc0__sage_kernel i arg1 harg1 arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_recon _)
  · iexists _; isplitr
    swap; · iexact H8
    ipureintro
    exact View.read_writes_eq_canon _ _ _ (cover_hidden _)

end Cert.Kernel.Body

end
-- ==== Proof.BitsData.lean ====
/-
  The proof data of the one pipeline and the body's obligation at every grid point, at any float instance.

  The grid has 49 points; point t handles node rows 1024 t ... 1024 t + 1023 of the 50000.  The last block
  overhangs the arrays by 176 rows: its fetches fill only the first 848 rows of the two row-blocked input buffers
  and its write-backs write only the first 848 rows of the two output buffers.  Past those rows an input buffer
  holds words nothing names (d below), and what the body computes from them is never written back.

  After the body at point t:  the x buffer and the mean-neighbour buffer hold their blocks on the rows inside the
  array (the proof data fills the rest with the zero word; nothing reads the filler);  the five parameter buffers
  hold the whole parameter arrays, fetched once at point 0 and left in place;  the two output buffers hold
  recon and hidden of those.
-/
import proofs.«145262_j49563922596249_1_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The x block at point t on the rows inside the array, zero past them. -/
def xin (c : Dev nD) (t : Fin cfg0.N) : S1024x256.Idx → Elt F .f32 :=
  win0_0.fill (grid0.coords t) (fun _ => Scalar.ofBits .f32 0#32) (iblk m c 0 t)

/-- The mean-neighbour block at point t on the rows inside the array, zero past them. -/
def nin (c : Dev nD) (t : Fin cfg0.N) : S1024x256.Idx → Elt F .f32 :=
  win0_1.fill (grid0.coords t) (fun _ => Scalar.ofBits .f32 0#32) (iblk m c 1 t)

/-- The proof data on core c: the arrays as the region finds them; after the body the staging buffers as the
    header says; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => nin m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => recon (xin m c t) (nin m c t) (iblk m c 2 t) (iblk m c 3 t) (iblk m c 4 t) (iblk m c 5 t) (iblk m c 6 t)
    | ⟨8, _⟩ => hidden (xin m c t) (nin m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = nin m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = recon (xin m c t) (nin m c t) (iblk m c 2 t) (iblk m c 3 t) (iblk m c 4 t) (iblk m c 5 t) (iblk m c 6 t) := by dsimp only [dats]
theorem after0_8 (c : Dev nD) (t : Fin cfg0.N) : (dats m 0 c).after 8 t
    = hidden (xin m c t) (nin m c t) (iblk m c 2 t) (iblk m c 3 t) (iblk m c 4 t) := by dsimp only [dats]

/-! ## What the body finds in each buffer -/

/-- The two row-blocked inputs are fetched at every point: the block on the rows inside the array, d elsewhere. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-- The five parameter buffers hold the whole parameter arrays at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The two outputs are written back at every point, so the body finds their buffers at contents nothing names. -/
theorem before0_7 (c : Dev nD) (t : Fin cfg0.N) (d) : (dats m 0 c).before 7 t d = d :=
  Dat.before_out_reset _ 7 rfl t (by
    by_cases h0 : t.val = 0
    · exact .inl h0
    · exact .inr ⟨h0, flush0_7 _⟩) d
theorem before0_8 (c : Dev nD) (t : Fin cfg0.N) (d) : (dats m 0 c).before 8 t d = d :=
  Dat.before_out_reset _ 8 rfl t (by
    by_cases h0 : t.val = 0
    · exact .inl h0
    · exact .inr ⟨h0, flush0_8 _⟩) d

/-! ## The body at a grid point -/

/-- The body at point t, the inputs at what the pipeline hands them (the row-blocked ones filled out with any
    d0, d1), the outputs at anything: it leaves the inputs as found and the outputs at recon and hidden of them. -/
theorem sound_at (c : Dev nD) (t : Fin cfg0.N) (d0 d1 : S1024x256.Idx → Elt F .f32) (K : PUnit → sProp 𝕄) :
    iprop(owns (c : Thread nD τ) (st0_0 t) fullShare (win0_0.fill (grid0.coords t) d0 (iblk m c 0 t))
        ∗ owns (c : Thread nD τ) (st0_1 t) fullShare (win0_1.fill (grid0.coords t) d1 (iblk m c 1 t))
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ d, owns (c : Thread nD τ) (st0_7 t) fullShare d) ∗ (∃ d, owns (c : Thread nD τ) (st0_8 t) fullShare d)
        ∗ (iprop(owns (c : Thread nD τ) (st0_0 t) fullShare (win0_0.fill (grid0.coords t) d0 (iblk m c 0 t))
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare (iblk m c 3 t)
            ∗ owns (c : Thread nD τ) (st0_4 t) fullShare (iblk m c 4 t)
            ∗ owns (c : Thread nD τ) (st0_5 t) fullShare (iblk m c 5 t)
            ∗ owns (c : Thread nD τ) (st0_6 t) fullShare (iblk m c 6 t)
            ∗ owns (c : Thread nD τ) (st0_7 t) fullShare
                (recon (win0_0.fill (grid0.coords t) d0 (iblk m c 0 t)) (win0_1.fill (grid0.coords t) d1 (iblk m c 1 t))
                  (iblk m c 2 t) (iblk m c 3 t) (iblk m c 4 t) (iblk m c 5 t) (iblk m c 6 t))
            ∗ owns (c : Thread nD τ) (st0_8 t) fullShare
                (hidden (win0_0.fill (grid0.coords t) d0 (iblk m c 0 t)) (win0_1.fill (grid0.coords t) d1 (iblk m c 1 t))
                  (iblk m c 2 t) (iblk m c 3 t) (iblk m c 4 t))) -∗ K ⟨⟩))
      ⊢ wp frame (wpE (defs₀ (F := F)) Variants.none c none) Set.univ (bodyAt0 t) K := by
  unfold bodyAt0
  exact sound_kernel c Set.univ (grid0.coords t) _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) K

/-! ## The obligation that says nothing of the output buffers -/

/-- The two output windows. -/
abbrev outWins : Fin cfg0.W → Bool :=
  fun | 0 => false | 1 => false | 2 => false | 3 => false | 4 => false | 5 => false | 6 => false | 7 => true | 8 => true
      | ⟨_ + 9, h⟩ => absurd h (Nat.not_lt.2 (Nat.le_add_left _ _))

/-- At every point the body runs and hands back the input buffers as it found them; of the output buffers
    only that they are handed back. -/
theorem body_obligation_frame (c : Dev nD) :
    BodyObligationLoose (dats (F := F) m 0 c) (defs₀ (F := F)) Variants.none () Set.univ outWins := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  rw [before0_0 m c t d0, before0_1 m c t d1, before0_2 m c t d2, before0_3 m c t d3, before0_4 m c t d4,
    before0_5 m c t d5, before0_6 m c t d6]
  iapply (sound_at (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists X7; iexact H7
  isplitl [H8]; · iexists X8; iexact H8
  iintro ⟨H0, H1, H2, H3, H4, H5, H6, H7, H8⟩
  isplitl [HΦ]; · iexact HΦ
  isplitl [Ho]; · iexact Ho
  have hx : win0_0.cut (grid0.coords t) (xin m c t) = iblk m c 0 t := win0_0.cut_fill _ _ _
  have hn : win0_1.cut (grid0.coords t) (nin m c t) = iblk m c 1 t := win0_1.cut_fill _ _ _
  isplitl [H0]
  · iexists d0
    rw [after0_0]
    change _ ⊢ owns (c : Thread nD τ) (st0_0 t) fullShare (win0_0.fill (grid0.coords t) d0 (win0_0.cut (grid0.coords t) (xin m c t)))
    rw [hx]
  isplitl [H1]
  · iexists d1
    rw [after0_1]
    change _ ⊢ owns (c : Thread nD τ) (st0_1 t) fullShare (win0_1.fill (grid0.coords t) d1 (win0_1.cut (grid0.coords t) (nin m c t)))
    rw [hn]
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]; · iexists _; iexact H7
  · iexists _; iexact H8

/-! ## The exact obligation, given that the outputs' rows inside the array do not see the filler -/

/-- What the exact obligation needs beyond the body's triple: on the rows a write-back moves, recon and hidden
    computed from input blocks filled out with ANY words past the array's end agree with those computed from the
    zero-filled ones. (Each output row depends on the same row of the two inputs only; that is a fact of the float
    instance's matrix product.) -/
def RowLocal : Prop :=
  ∀ (c : Dev nD) (t : Fin cfg0.N) (d0 d1 : S1024x256.Idx → Elt F .f32),
    win0_7.cut (grid0.coords t)
        (recon (win0_0.fill (grid0.coords t) d0 (iblk m c 0 t)) (win0_1.fill (grid0.coords t) d1 (iblk m c 1 t))
          (iblk m c 2 t) (iblk m c 3 t) (iblk m c 4 t) (iblk m c 5 t) (iblk m c 6 t))
      = win0_7.cut (grid0.coords t)
        (recon (xin m c t) (nin m c t) (iblk m c 2 t) (iblk m c 3 t) (iblk m c 4 t) (iblk m c 5 t) (iblk m c 6 t))
    ∧ win0_8.cut (grid0.coords t)
        (hidden (win0_0.fill (grid0.coords t) d0 (iblk m c 0 t)) (win0_1.fill (grid0.coords t) d1 (iblk m c 1 t))
          (iblk m c 2 t) (iblk m c 3 t) (iblk m c 4 t))
      = win0_8.cut (grid0.coords t)
        (hidden (xin m c t) (nin m c t) (iblk m c 2 t) (iblk m c 3 t) (iblk m c 4 t))

/-- At every point the body runs, hands back the inputs as found, and leaves in the output buffers, on the rows a
    write-back moves, recon and hidden of the input blocks. -/
theorem body_obligation (hloc : RowLocal (F := F) m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4,
    before0_5 m c t d5, before0_6 m c t d6, before0_7 m c t d7, before0_8 m c t d8]
  iapply (sound_at (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  iintro ⟨H0, H1, H2, H3, H4, H5, H6, H7, H8⟩
  isplitl [HΦ]; · iexact HΦ
  isplitl [Ho]; · iexact Ho
  have hx : win0_0.cut (grid0.coords t) (xin m c t) = iblk m c 0 t := win0_0.cut_fill _ _ _
  have hn : win0_1.cut (grid0.coords t) (nin m c t) = iblk m c 1 t := win0_1.cut_fill _ _ _
  isplitl [H0]
  · iexists d0
    rw [after0_0]
    change _ ⊢ owns (c : Thread nD τ) (st0_0 t) fullShare (win0_0.fill (grid0.coords t) d0 (win0_0.cut (grid0.coords t) (xin m c t)))
    rw [hx]
  isplitl [H1]
  · iexists d1
    rw [after0_1]
    change _ ⊢ owns (c : Thread nD τ) (st0_1 t) fullShare (win0_1.fill (grid0.coords t) d1 (win0_1.cut (grid0.coords t) (nin m c t)))
    rw [hn]
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]
  · iexists _
    rw [after0_7]
    change _ ⊢ owns (c : Thread nD τ) (st0_7 t) fullShare (win0_7.fill (grid0.coords t) _ (win0_7.cut (grid0.coords t) _))
    rw [win0_7.fill_congr_cut (grid0.coords t) (hloc c t d0 d1).1]
  · iexists _
    rw [after0_8]
    change _ ⊢ owns (c : Thread nD τ) (st0_8 t) fullShare (win0_8.fill (grid0.coords t) _ (win0_8.cut (grid0.coords t) _))
    rw [win0_8.fill_congr_cut (grid0.coords t) (hloc c t d0 d1).2]

end Cert.Kernel.Body

end
-- ==== Proof.BitsRun.lean ====
/-
  The runs of the whole program, at any float instance.

  (1) The frame: every weakly fair execution terminates without a fault and the eight argument arrays end as
      launched.  It needs nothing of what the body computes, so it is run with the proof data read relationally,
      the two output windows forgotten: an input array is never written, and an argument no window stages is not
      touched by the region.
  (2) The run that also names the two result arrays (block by block, through the proof data), given that the
      rows a write-back moves do not see the filler past the array's end.
-/
import proofs.«145262_j49563922596249_1_alg».proof.Proof.BitsData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

/-- The proof data read relationally, the two output windows forgotten. -/
abbrev rdats (c : Dev nD) : RDat τ (Elt F) Unit ℕ (UR sig nD τ) ℕ cfg0 c := (dats m 0 c).toRForget outWins

set_option backward.isDefEq.respectTransparency.types false in
/-- Every weakly fair execution terminates; every array of the pipeline ends at contents the relational data
    allows, every other unscoped buffer as the region found it. -/
theorem run_frame : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => (body_obligation_frame m c).toRForget)
    (hshare := fun c w => (dats m 0 c).share_full (fun _ => rfl) w)
    (howed := fun _ _ => rfl) (V := V m) (hmain := hmain m Variants.none) (hA := A_eq m) (hΦ := fun _ _ => rfl)

/-- An input array of the pipeline ends as the region found it. -/
theorem in_kept (c : Dev nD) (w : Fin cfg0.W) (hw : (cfg0.win w).isOut = false)
    (X : Buf (Elt F) ((cfg0.win w).arr.view.loc (c.tc : Thread nD τ))) (h : (rdats m c).ArrAt w cfg0.N X) :
    X = V m c (Pipeline.arrRef spec0 w) := by
  rw [(rdats m c).ArrAt_in w hw] at h
  exact h.trans (A_eq m c w)

/-- The frame: the program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(in_kept m c 0 rfl _ ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (in_kept m c 2 rfl _ ((h c).1 2)).trans (V_main_arg3 m c),
      (in_kept m c 3 rfl _ ((h c).1 3)).trans (V_main_arg4 m c),
      ((h c).2 main_arg5 (Pipeline.mem_restRefs_of main_arg5 (by decide) (by decide))).trans (V_main_arg5 m c),
      (in_kept m c 5 rfl _ ((h c).1 5)).trans (V_main_arg6 m c),
      ((h c).2 main_arg7 (Pipeline.mem_restRefs_of main_arg7 (by decide) (by decide))).trans (V_main_arg7 m c)⟩)
    (run_frame m ρ)

/-! ## The run that names the results -/

set_option backward.isDefEq.respectTransparency.types false in
/-- Every weakly fair execution terminates; every array of the pipeline ends at what the proof data computes
    (an output: its launch contents overwritten block by block by what the body left on the moved rows), every
    other unscoped buffer as the region found it. -/
theorem run_main (hloc : RowLocal (F := F) m) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

end Cert.Kernel.Body

end
-- ==== Proof.IdealBody.lean ====
/-
  The kernel body of the SAGE encoder/decoder on whole staging buffers, at any float instance.

  One grid point loads a block of node features x (1024 x 256), the matching block of mean neighbour features
  (1024 x 256), both encoder weights (256 x 512), the encoder bias row (1 x 512), the decoder weight (512 x 256)
  and the decoder bias row (1 x 256), all as whole buffers; it stores
      h     = max (x W_self + mean W_neigh + b_enc, 0)      (1024 x 512)
      recon = h W_dec + b_dec                               (1024 x 256)
  as whole buffers.  The input buffers are left as found.  Before each store the body also loads the output
  buffer it is about to overwrite; nothing reads that value.
-/
import proofs.«145262_j49563922596249_1_alg».proof.Proof.Gen.KernelIdeal.Frame
import proofs.«145262_j49563922596249_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The whole-buffer rectangles the body accesses -/

abbrev rX : Rect S1024x256 := Rect.unit (s := S1024x256) ![0, 0] S1024x256.size inb_S1024x256_S1024x256_0_0
abbrev rW : Rect S256x512 := Rect.unit (s := S256x512) ![0, 0] S256x512.size inb_S256x512_S256x512_0_0
abbrev rB : Rect S1x512 := Rect.unit (s := S1x512) ![0, 0] S1x512.size inb_S1x512_S1x512_0_0
abbrev rH : Rect S1024x512 := Rect.unit (s := S1024x512) ![0, 0] S1024x512.size inb_S1024x512_S1024x512_0_0
abbrev rD : Rect S512x256 := Rect.unit (s := S512x256) ![0, 0] S512x256.size inb_S512x256_S512x256_0_0
abbrev rC : Rect S1x256 := Rect.unit (s := S1x256) ![0, 0] S1x256.size inb_S1x256_S1x256_0_0

/-! ## What the two stores leave -/

/-- The hidden block h, as the one whole-buffer store leaves it, from the contents of the five input buffers it
    depends on. -/
def hidden (x0 x1 : Vec F S1024x256 .f32) (w2 w3 : Vec F S256x512 .f32) (b4 : Vec F S1x512 .f32) : Vec F S1024x512 .f32 :=
  View.canon [⟨rH, k0_pay1 (View.ld x0 rX) (View.ld x1 rX) (View.ld w2 rW) (View.ld w3 rW) (View.ld b4 rB)⟩]

/-- The reconstruction block, as the one whole-buffer store leaves it, from the contents of all seven input
    buffers. -/
def recon (x0 x1 : Vec F S1024x256 .f32) (w2 w3 : Vec F S256x512 .f32) (b4 : Vec F S1x512 .f32)
    (w5 : Vec F S512x256 .f32) (b6 : Vec F S1x256 .f32) : Vec F S1024x256 .f32 :=
  View.canon [⟨rX, k0_pay2 (View.ld x0 rX) (View.ld x1 rX) (View.ld w2 rW) (View.ld w3 rW) (View.ld b4 rB) (View.ld w5 rD) (View.ld b6 rC)⟩]

/-- A whole-buffer store covers the buffer. -/
theorem cover_hidden (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

theorem cover_recon (p0 : Vec F S1024x256 .f32) (y : S1024x256.Idx) :
    ∃ pc ∈ ([⟨rX, p0⟩] : List (View.Piece (Elt F) S1024x256 .f32)), y ∈ pc.1.set :=
  View.cover_of_tiled [⟨rX, p0⟩] S1024x256.size (by rfl) y

/-! ## The body's triple -/

set_option maxHeartbeats 1000000 in
/-- The body on whole staging buffers: the seven input buffers at contents x0 ... b6, the two output buffers at
    anything; it runs to the end, leaves the inputs as they were, the reconstruction buffer at recon and the
    hidden buffer at hidden of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S256x512 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S1024x256 .f32) (harg8 : arg8.IsWhole)
    (arg9 : Memref sig .tc .vmem S1024x512 .f32) (harg9 : arg9.IsWhole)
    (x0 x1 : Vec F S1024x256 .f32) (w2 w3 : Vec F S256x512 .f32) (b4 : Vec F S1x512 .f32)
    (w5 : Vec F S512x256 .f32) (b6 : Vec F S1x256 .f32) (K : PUnit → sProp 𝕄) :
    iprop(owns (c : Thread nD τ) arg1 fullShare x0 ∗ owns (c : Thread nD τ) arg2 fullShare x1
        ∗ owns (c : Thread nD τ) arg3 fullShare w2 ∗ owns (c : Thread nD τ) arg4 fullShare w3
        ∗ owns (c : Thread nD τ) arg5 fullShare b4 ∗ owns (c : Thread nD τ) arg6 fullShare w5
        ∗ owns (c : Thread nD τ) arg7 fullShare b6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare w2 ∗ owns (c : Thread nD τ) arg4 fullShare w3
            ∗ owns (c : Thread nD τ) arg5 fullShare b4 ∗ owns (c : Thread nD τ) arg6 fullShare w5
            ∗ owns (c : Thread nD τ) arg7 fullShare b6
            ∗ owns (c : Thread nD τ) arg8 fullShare (recon x0 x1 w2 w3 b4 w5 b6)
            ∗ owns (c : Thread nD τ) arg9 fullShare (hidden x0 x1 w2 w3 b4)) -∗ K ⟨⟩))
      ⊢ wp frame (wpE (defs₀ (F := F)) Variants.none c none) E
          (cc0__sage_kernel i arg1 harg1 arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_recon _)
  · iexists _; isplitr
    swap; · iexact H8
    ipureintro
    exact View.read_writes_eq_canon _ _ _ (cover_hidden _)

end Cert.KernelIdeal.Body

end
-- ==== Proof.IdealData.lean ====
/-
  The proof data of the one pipeline and the body's obligation at every grid point, at any float instance.

  The grid has 49 points; point t handles node rows 1024 t ... 1024 t + 1023 of the 50000.  The last block
  overhangs the arrays by 176 rows: its fetches fill only the first 848 rows of the two row-blocked input buffers
  and its write-backs write only the first 848 rows of the two output buffers.  Past those rows an input buffer
  holds words nothing names (d below), and what the body computes from them is never written back.

  After the body at point t:  the x buffer and the mean-neighbour buffer hold their blocks on the rows inside the
  array (the proof data fills the rest with the zero word; nothing reads the filler);  the five parameter buffers
  hold the whole parameter arrays, fetched once at point 0 and left in place;  the two output buffers hold
  recon and hidden of those.
-/
import proofs.«145262_j49563922596249_1_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The x block at point t on the rows inside the array, zero past them. -/
def xin (c : Dev nD) (t : Fin cfg0.N) : S1024x256.Idx → Elt F .f32 :=
  win0_0.fill (grid0.coords t) (fun _ => Scalar.ofBits .f32 0#32) (iblk m c 0 t)

/-- The mean-neighbour block at point t on the rows inside the array, zero past them. -/
def nin (c : Dev nD) (t : Fin cfg0.N) : S1024x256.Idx → Elt F .f32 :=
  win0_1.fill (grid0.coords t) (fun _ => Scalar.ofBits .f32 0#32) (iblk m c 1 t)

/-- The proof data on core c: the arrays as the region finds them; after the body the staging buffers as the
    header says; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => nin m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => recon (xin m c t) (nin m c t) (iblk m c 2 t) (iblk m c 3 t) (iblk m c 4 t) (iblk m c 5 t) (iblk m c 6 t)
    | ⟨8, _⟩ => hidden (xin m c t) (nin m c t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = nin m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = recon (xin m c t) (nin m c t) (iblk m c 2 t) (iblk m c 3 t) (iblk m c 4 t) (iblk m c 5 t) (iblk m c 6 t) := by dsimp only [dats]
theorem after0_8 (c : Dev nD) (t : Fin cfg0.N) : (dats m 0 c).after 8 t
    = hidden (xin m c t) (nin m c t) (iblk m c 2 t) (iblk m c 3 t) (iblk m c 4 t) := by dsimp only [dats]

/-! ## What the body finds in each buffer -/

/-- The two row-blocked inputs are fetched at every point: the block on the rows inside the array, d elsewhere. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-- The five parameter buffers hold the whole parameter arrays at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The two outputs are written back at every point, so the body finds their buffers at contents nothing names. -/
theorem before0_7 (c : Dev nD) (t : Fin cfg0.N) (d) : (dats m 0 c).before 7 t d = d :=
  Dat.before_out_reset _ 7 rfl t (by
    by_cases h0 : t.val = 0
    · exact .inl h0
    · exact .inr ⟨h0, flush0_7 _⟩) d
theorem before0_8 (c : Dev nD) (t : Fin cfg0.N) (d) : (dats m 0 c).before 8 t d = d :=
  Dat.before_out_reset _ 8 rfl t (by
    by_cases h0 : t.val = 0
    · exact .inl h0
    · exact .inr ⟨h0, flush0_8 _⟩) d

/-! ## The body at a grid point -/

/-- The body at point t, the inputs at what the pipeline hands them (the row-blocked ones filled out with any
    d0, d1), the outputs at anything: it leaves the inputs as found and the outputs at recon and hidden of them. -/
theorem sound_at (c : Dev nD) (t : Fin cfg0.N) (d0 d1 : S1024x256.Idx → Elt F .f32) (K : PUnit → sProp 𝕄) :
    iprop(owns (c : Thread nD τ) (st0_0 t) fullShare (win0_0.fill (grid0.coords t) d0 (iblk m c 0 t))
        ∗ owns (c : Thread nD τ) (st0_1 t) fullShare (win0_1.fill (grid0.coords t) d1 (iblk m c 1 t))
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ d, owns (c : Thread nD τ) (st0_7 t) fullShare d) ∗ (∃ d, owns (c : Thread nD τ) (st0_8 t) fullShare d)
        ∗ (iprop(owns (c : Thread nD τ) (st0_0 t) fullShare (win0_0.fill (grid0.coords t) d0 (iblk m c 0 t))
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare (iblk m c 3 t)
            ∗ owns (c : Thread nD τ) (st0_4 t) fullShare (iblk m c 4 t)
            ∗ owns (c : Thread nD τ) (st0_5 t) fullShare (iblk m c 5 t)
            ∗ owns (c : Thread nD τ) (st0_6 t) fullShare (iblk m c 6 t)
            ∗ owns (c : Thread nD τ) (st0_7 t) fullShare
                (recon (win0_0.fill (grid0.coords t) d0 (iblk m c 0 t)) (win0_1.fill (grid0.coords t) d1 (iblk m c 1 t))
                  (iblk m c 2 t) (iblk m c 3 t) (iblk m c 4 t) (iblk m c 5 t) (iblk m c 6 t))
            ∗ owns (c : Thread nD τ) (st0_8 t) fullShare
                (hidden (win0_0.fill (grid0.coords t) d0 (iblk m c 0 t)) (win0_1.fill (grid0.coords t) d1 (iblk m c 1 t))
                  (iblk m c 2 t) (iblk m c 3 t) (iblk m c 4 t))) -∗ K ⟨⟩))
      ⊢ wp frame (wpE (defs₀ (F := F)) Variants.none c none) Set.univ (bodyAt0 t) K := by
  unfold bodyAt0
  exact sound_kernel c Set.univ (grid0.coords t) _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) K

/-! ## The obligation that says nothing of the output buffers -/

/-- The two output windows. -/
abbrev outWins : Fin cfg0.W → Bool :=
  fun | 0 => false | 1 => false | 2 => false | 3 => false | 4 => false | 5 => false | 6 => false | 7 => true | 8 => true
      | ⟨_ + 9, h⟩ => absurd h (Nat.not_lt.2 (Nat.le_add_left _ _))

/-- At every point the body runs and hands back the input buffers as it found them; of the output buffers
    only that they are handed back. -/
theorem body_obligation_frame (c : Dev nD) :
    BodyObligationLoose (dats (F := F) m 0 c) (defs₀ (F := F)) Variants.none () Set.univ outWins := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  rw [before0_0 m c t d0, before0_1 m c t d1, before0_2 m c t d2, before0_3 m c t d3, before0_4 m c t d4,
    before0_5 m c t d5, before0_6 m c t d6]
  iapply (sound_at (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists X7; iexact H7
  isplitl [H8]; · iexists X8; iexact H8
  iintro ⟨H0, H1, H2, H3, H4, H5, H6, H7, H8⟩
  isplitl [HΦ]; · iexact HΦ
  isplitl [Ho]; · iexact Ho
  have hx : win0_0.cut (grid0.coords t) (xin m c t) = iblk m c 0 t := win0_0.cut_fill _ _ _
  have hn : win0_1.cut (grid0.coords t) (nin m c t) = iblk m c 1 t := win0_1.cut_fill _ _ _
  isplitl [H0]
  · iexists d0
    rw [after0_0]
    change _ ⊢ owns (c : Thread nD τ) (st0_0 t) fullShare (win0_0.fill (grid0.coords t) d0 (win0_0.cut (grid0.coords t) (xin m c t)))
    rw [hx]
  isplitl [H1]
  · iexists d1
    rw [after0_1]
    change _ ⊢ owns (c : Thread nD τ) (st0_1 t) fullShare (win0_1.fill (grid0.coords t) d1 (win0_1.cut (grid0.coords t) (nin m c t)))
    rw [hn]
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]; · iexists _; iexact H7
  · iexists _; iexact H8

/-! ## The exact obligation, given that the outputs' rows inside the array do not see the filler -/

/-- What the exact obligation needs beyond the body's triple: on the rows a write-back moves, recon and hidden
    computed from input blocks filled out with ANY words past the array's end agree with those computed from the
    zero-filled ones. (Each output row depends on the same row of the two inputs only; that is a fact of the float
    instance's matrix product.) -/
def RowLocal : Prop :=
  ∀ (c : Dev nD) (t : Fin cfg0.N) (d0 d1 : S1024x256.Idx → Elt F .f32),
    win0_7.cut (grid0.coords t)
        (recon (win0_0.fill (grid0.coords t) d0 (iblk m c 0 t)) (win0_1.fill (grid0.coords t) d1 (iblk m c 1 t))
          (iblk m c 2 t) (iblk m c 3 t) (iblk m c 4 t) (iblk m c 5 t) (iblk m c 6 t))
      = win0_7.cut (grid0.coords t)
        (recon (xin m c t) (nin m c t) (iblk m c 2 t) (iblk m c 3 t) (iblk m c 4 t) (iblk m c 5 t) (iblk m c 6 t))
    ∧ win0_8.cut (grid0.coords t)
        (hidden (win0_0.fill (grid0.coords t) d0 (iblk m c 0 t)) (win0_1.fill (grid0.coords t) d1 (iblk m c 1 t))
          (iblk m c 2 t) (iblk m c 3 t) (iblk m c 4 t))
      = win0_8.cut (grid0.coords t)
        (hidden (xin m c t) (nin m c t) (iblk m c 2 t) (iblk m c 3 t) (iblk m c 4 t))

/-- At every point the body runs, hands back the inputs as found, and leaves in the output buffers, on the rows a
    write-back moves, recon and hidden of the input blocks. -/
theorem body_obligation (hloc : RowLocal (F := F) m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4,
    before0_5 m c t d5, before0_6 m c t d6, before0_7 m c t d7, before0_8 m c t d8]
  iapply (sound_at (F := F) m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  iintro ⟨H0, H1, H2, H3, H4, H5, H6, H7, H8⟩
  isplitl [HΦ]; · iexact HΦ
  isplitl [Ho]; · iexact Ho
  have hx : win0_0.cut (grid0.coords t) (xin m c t) = iblk m c 0 t := win0_0.cut_fill _ _ _
  have hn : win0_1.cut (grid0.coords t) (nin m c t) = iblk m c 1 t := win0_1.cut_fill _ _ _
  isplitl [H0]
  · iexists d0
    rw [after0_0]
    change _ ⊢ owns (c : Thread nD τ) (st0_0 t) fullShare (win0_0.fill (grid0.coords t) d0 (win0_0.cut (grid0.coords t) (xin m c t)))
    rw [hx]
  isplitl [H1]
  · iexists d1
    rw [after0_1]
    change _ ⊢ owns (c : Thread nD τ) (st0_1 t) fullShare (win0_1.fill (grid0.coords t) d1 (win0_1.cut (grid0.coords t) (nin m c t)))
    rw [hn]
  isplitl [H2]; · rw [after0_2]; iexact H2
  isplitl [H3]; · rw [after0_3]; iexact H3
  isplitl [H4]; · rw [after0_4]; iexact H4
  isplitl [H5]; · rw [after0_5]; iexact H5
  isplitl [H6]; · rw [after0_6]; iexact H6
  isplitl [H7]
  · iexists _
    rw [after0_7]
    change _ ⊢ owns (c : Thread nD τ) (st0_7 t) fullShare (win0_7.fill (grid0.coords t) _ (win0_7.cut (grid0.coords t) _))
    rw [win0_7.fill_congr_cut (grid0.coords t) (hloc c t d0 d1).1]
  · iexists _
    rw [after0_8]
    change _ ⊢ owns (c : Thread nD τ) (st0_8 t) fullShare (win0_8.fill (grid0.coords t) _ (win0_8.cut (grid0.coords t) _))
    rw [win0_8.fill_congr_cut (grid0.coords t) (hloc c t d0 d1).2]

end Cert.KernelIdeal.Body

end
-- ==== Proof.IdealRun.lean ====
/-
  The runs of the whole program, at any float instance.

  (1) The frame: every weakly fair execution terminates without a fault and the eight argument arrays end as
      launched.  It needs nothing of what the body computes, so it is run with the proof data read relationally,
      the two output windows forgotten: an input array is never written, and an argument no window stages is not
      touched by the region.
  (2) The run that also names the two result arrays (block by block, through the proof data), given that the
      rows a write-back moves do not see the filler past the array's end.
-/
import proofs.«145262_j49563922596249_1_alg».proof.Proof.IdealData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

/-- The proof data read relationally, the two output windows forgotten. -/
abbrev rdats (c : Dev nD) : RDat τ (Elt F) Unit ℕ (UR sig nD τ) ℕ cfg0 c := (dats m 0 c).toRForget outWins

set_option backward.isDefEq.respectTransparency.types false in
/-- Every weakly fair execution terminates; every array of the pipeline ends at contents the relational data
    allows, every other unscoped buffer as the region found it. -/
theorem run_frame : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => (body_obligation_frame m c).toRForget)
    (hshare := fun c w => (dats m 0 c).share_full (fun _ => rfl) w)
    (howed := fun _ _ => rfl) (V := V m) (hmain := hmain m Variants.none) (hA := A_eq m) (hΦ := fun _ _ => rfl)

/-- An input array of the pipeline ends as the region found it. -/
theorem in_kept (c : Dev nD) (w : Fin cfg0.W) (hw : (cfg0.win w).isOut = false)
    (X : Buf (Elt F) ((cfg0.win w).arr.view.loc (c.tc : Thread nD τ))) (h : (rdats m c).ArrAt w cfg0.N X) :
    X = V m c (Pipeline.arrRef spec0 w) := by
  rw [(rdats m c).ArrAt_in w hw] at h
  exact h.trans (A_eq m c w)

/-- The frame: the program runs and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(in_kept m c 0 rfl _ ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (in_kept m c 2 rfl _ ((h c).1 2)).trans (V_main_arg3 m c),
      (in_kept m c 3 rfl _ ((h c).1 3)).trans (V_main_arg4 m c),
      ((h c).2 main_arg5 (Pipeline.mem_restRefs_of main_arg5 (by decide) (by decide))).trans (V_main_arg5 m c),
      (in_kept m c 5 rfl _ ((h c).1 5)).trans (V_main_arg6 m c),
      ((h c).2 main_arg7 (Pipeline.mem_restRefs_of main_arg7 (by decide) (by decide))).trans (V_main_arg7 m c)⟩)
    (run_frame m ρ)

/-! ## The run that names the results -/

set_option backward.isDefEq.respectTransparency.types false in
/-- Every weakly fair execution terminates; every array of the pipeline ends at what the proof data computes
    (an output: its launch contents overwritten block by block by what the body left on the moved rows), every
    other unscoped buffer as the region found it. -/
theorem run_main (hloc : RowLocal (F := F) m) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hΦ := fun _ _ => rfl)

end Cert.KernelIdeal.Body

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.IdealPayload.lean ====
/-
  The two stored blocks read at coordinates, at the extended reals.

  At the ideal instance a change of float format is the identity, a product accumulated into the zero array is the
  plain sum of products, and the bias row is read at its one row.  So, for the contents x0, x1 (1024 x 256),
  w2, w3 (256 x 512), b4 (1 x 512), w5 (512 x 256), b6 (1 x 256) of the seven input buffers,
      hidden (p, q) = max (sum_k x0 (p,k) w2 (k,q) + sum_k x1 (p,k) w3 (k,q) + b4 (0,q), 0)
      recon  (p, q) = sum_k hidden (p,k) w5 (k,q) + b6 (0,q).
  Row p of either depends on x0 and x1 through their row p only.
-/
import proofs.«145262_j49563922596249_1_alg».proof.Proof.IdealBody
import proofs.«145262_j49563922596249_1_alg».proof.Proof.LibPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

theorem zero2 : (![0, 0] : Fin 2 → Nat) = fun _ => 0 := funext fun a => by fin_cases a <;> rfl

/-- The two products' dimension numbers are the standard ones. -/
theorem plain_enc : dot_S1024x256_S256x512_S1024x512_1_0_0_1_n_n = DotDims.plain 1024 256 512 := rfl
theorem plain_dec : dot_S1024x512_S512x256_S1024x256_1_0_0_1_n_n = DotDims.plain 1024 512 256 := rfl

/-- An encoder product at (p, q). -/
theorem enc_apply (A : FVec Ideal S1024x256 .bf16) (B : FVec Ideal S256x512 .bf16) (p : Fin 1024) (q : Fin 512) :
    matmul dot_S1024x256_S256x512_S1024x512_1_0_0_1_n_n none A B (constant (F := Ideal) S1024x512 .f32 0x00000000#32) (ix2 p q)
      = ∑ k : Fin 256, A (ix2 p k) * B (ix2 k q) :=
  Cert.LibPlain.matmul_zero_apply _ plain_enc none A B p q

/-- The decoder product at (p, q). -/
theorem dec_apply (A : FVec Ideal S1024x512 .bf16) (B : FVec Ideal S512x256 .bf16) (p : Fin 1024) (q : Fin 256) :
    matmul dot_S1024x512_S512x256_S1024x256_1_0_0_1_n_n none A B (constant (F := Ideal) S1024x256 .f32 0x00000000#32) (ix2 p q)
      = ∑ k : Fin 512, A (ix2 p k) * B (ix2 k q) :=
  Cert.LibPlain.matmul_zero_apply _ plain_dec none A B p q

/-- The hidden block is the first store's payload of the buffers' contents. -/
theorem hidden_eq (x0 x1 : Vec Ideal S1024x256 .f32) (w2 w3 : Vec Ideal S256x512 .f32) (b4 : Vec Ideal S1x512 .f32) :
    hidden (F := Ideal) x0 x1 w2 w3 b4 = k0_pay1 x0 x1 w2 w3 b4 := by
  unfold hidden
  rw [View.canon_unit_zero zero2]
  simp only [View.ld_unit_zero (S := S1024x256) zero2, View.ld_unit_zero (S := S256x512) zero2, View.ld_unit_zero (S := S1x512) zero2]

/-- The reconstruction block is the second store's payload of the buffers' contents. -/
theorem recon_eq (x0 x1 : Vec Ideal S1024x256 .f32) (w2 w3 : Vec Ideal S256x512 .f32) (b4 : Vec Ideal S1x512 .f32)
    (w5 : Vec Ideal S512x256 .f32) (b6 : Vec Ideal S1x256 .f32) :
    recon (F := Ideal) x0 x1 w2 w3 b4 w5 b6 = k0_pay2 x0 x1 w2 w3 b4 w5 b6 := by
  unfold recon
  rw [View.canon_unit_zero zero2]
  simp only [View.ld_unit_zero (S := S1024x256) zero2, View.ld_unit_zero (S := S256x512) zero2, View.ld_unit_zero (S := S1x512) zero2,
    View.ld_unit_zero (S := S512x256) zero2, View.ld_unit_zero (S := S1x256) zero2]

/-- The first payload at (p, q). -/
theorem pay1_apply (x0 x1 : Vec Ideal S1024x256 .f32) (w2 w3 : Vec Ideal S256x512 .f32) (b4 : Vec Ideal S1x512 .f32)
    (p : Fin 1024) (q : Fin 512) :
    k0_pay1 (F := Ideal) x0 x1 w2 w3 b4 (ix2 p q)
      = max ((∑ k : Fin 256, x0 (ix2 p k) * w2 (ix2 k q)) + (∑ k : Fin 256, x1 (ix2 p k) * w3 (ix2 k q))
          + b4 (ix2 (0 : Fin 1) q)) 0 := by
  have hm1 := enc_apply (truncf .bf16 x0 bitsLt_bf16_f32) (truncf .bf16 w2 bitsLt_bf16_f32) p q
  have hm2 := enc_apply (truncf .bf16 (shapeCast S1024x256 x1 shapeCasts_S1024x256_S1024x256) bitsLt_bf16_f32)
    (truncf .bf16 w3 bitsLt_bf16_f32) p q
  have hb : broadcastTo S1024x512 (shapeCast S1x512 b4 shapeCasts_S1x512_S1x512) broadcasts_S1x512_S1024x512 (ix2 p q)
      = b4 (ix2 (0 : Fin 1) q) := by
    rw [broadcastTo_1b_ab_apply, shapeCast_self]
  have hx1 : shapeCast S1024x256 x1 shapeCasts_S1024x256_S1024x256 = x1 := shapeCast_self _ _
  unfold k0_pay1
  show max (matmul _ none _ _ _ (ix2 p q) + matmul _ none _ _ _ (ix2 p q) + broadcastTo _ _ _ (ix2 p q))
      (Ideal.ofBits .f32 0x00000000#32) = _
  rw [hm1, hm2, hb, hx1, Ideal.ofBits_zero_f32]
  rfl

/-- The hidden block at (p, q). -/
theorem hidden_apply (x0 x1 : Vec Ideal S1024x256 .f32) (w2 w3 : Vec Ideal S256x512 .f32) (b4 : Vec Ideal S1x512 .f32)
    (p : Fin 1024) (q : Fin 512) :
    hidden (F := Ideal) x0 x1 w2 w3 b4 (ix2 p q)
      = max ((∑ k : Fin 256, x0 (ix2 p k) * w2 (ix2 k q)) + (∑ k : Fin 256, x1 (ix2 p k) * w3 (ix2 k q))
          + b4 (ix2 (0 : Fin 1) q)) 0 := by
  rw [hidden_eq]; exact pay1_apply x0 x1 w2 w3 b4 p q

/-- The reconstruction block at (p, q), over the hidden block's row p. -/
theorem recon_apply (x0 x1 : Vec Ideal S1024x256 .f32) (w2 w3 : Vec Ideal S256x512 .f32) (b4 : Vec Ideal S1x512 .f32)
    (w5 : Vec Ideal S512x256 .f32) (b6 : Vec Ideal S1x256 .f32) (p : Fin 1024) (q : Fin 256) :
    recon (F := Ideal) x0 x1 w2 w3 b4 w5 b6 (ix2 p q)
      = (∑ k : Fin 512, hidden (F := Ideal) x0 x1 w2 w3 b4 (ix2 p k) * w5 (ix2 k q)) + b6 (ix2 (0 : Fin 1) q) := by
  have hm := dec_apply (truncf .bf16 (k0_pay1 x0 x1 w2 w3 b4) bitsLt_bf16_f32) (truncf .bf16 w5 bitsLt_bf16_f32) p q
  have hb : broadcastTo S1024x256 (shapeCast S1x256 b6 shapeCasts_S1x256_S1x256) broadcasts_S1x256_S1024x256 (ix2 p q)
      = b6 (ix2 (0 : Fin 1) q) := by
    rw [broadcastTo_1b_ab_apply, shapeCast_self]
  rw [recon_eq, hidden_eq]
  unfold k0_pay2
  show matmul _ none _ _ _ (ix2 p q) + broadcastTo _ _ _ (ix2 p q) = _
  rw [hm, hb]
  rfl

/-- Row p of the hidden block sees the two row-blocked inputs through their row p only. -/
theorem hidden_row_congr (x0 x0' x1 x1' : Vec Ideal S1024x256 .f32) (w2 w3 : Vec Ideal S256x512 .f32) (b4 : Vec Ideal S1x512 .f32)
    (p : Fin 1024) (h0 : ∀ k : Fin 256, x0 (ix2 p k) = x0' (ix2 p k)) (h1 : ∀ k : Fin 256, x1 (ix2 p k) = x1' (ix2 p k))
    (q : Fin 512) : hidden (F := Ideal) x0 x1 w2 w3 b4 (ix2 p q) = hidden (F := Ideal) x0' x1' w2 w3 b4 (ix2 p q) := by
  rw [hidden_apply, hidden_apply]
  simp only [h0, h1]

/-- So does row p of the reconstruction block. -/
theorem recon_row_congr (x0 x0' x1 x1' : Vec Ideal S1024x256 .f32) (w2 w3 : Vec Ideal S256x512 .f32) (b4 : Vec Ideal S1x512 .f32)
    (w5 : Vec Ideal S512x256 .f32) (b6 : Vec Ideal S1x256 .f32)
    (p : Fin 1024) (h0 : ∀ k : Fin 256, x0 (ix2 p k) = x0' (ix2 p k)) (h1 : ∀ k : Fin 256, x1 (ix2 p k) = x1' (ix2 p k))
    (q : Fin 256) : recon (F := Ideal) x0 x1 w2 w3 b4 w5 b6 (ix2 p q) = recon (F := Ideal) x0' x1' w2 w3 b4 w5 b6 (ix2 p q) := by
  rw [recon_apply, recon_apply]
  simp only [hidden_row_congr x0 x0' x1 x1' w2 w3 b4 p h0 h1]

end Cert.KernelIdeal.Body

end
-- ==== Proof.IdealLocal.lean ====
/-
  The rows a transfer moves, and that they do not see the filler, at the extended reals.

  The four row-blocked windows (x, the mean-neighbour array, the two results) have blocks of 1024 rows at block
  index t; the transfer at point t moves min (1024, 50000 - 1024 t) of them (848 at the last point, all 1024
  before) and every column.  A staging block filled out past the moved rows reads, on a moved row, the fetched
  block whatever the filler; and row p of hidden and of recon reads row p of the two inputs only.
-/
import proofs.«145262_j49563922596249_1_alg».proof.Proof.IdealData
import proofs.«145262_j49563922596249_1_alg».proof.Proof.IdealPayload

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Decided over the 49 grid points: the block index of each row-blocked window is (t, 0); the four windows are cut
    alike along the rows, to min (1024, 50000 - 1024 t) rows, and never along the columns. -/
theorem grid_facts : ∀ t : Fin cfg0.N,
    win0_0.xsize (grid0.coords t) (0 : Fin 2) = win0_7.xsize (grid0.coords t) (0 : Fin 2)
    ∧ win0_1.xsize (grid0.coords t) (0 : Fin 2) = win0_7.xsize (grid0.coords t) (0 : Fin 2)
    ∧ win0_8.xsize (grid0.coords t) (0 : Fin 2) = win0_7.xsize (grid0.coords t) (0 : Fin 2)
    ∧ win0_0.xsize (grid0.coords t) (1 : Fin 2) = 256 ∧ win0_1.xsize (grid0.coords t) (1 : Fin 2) = 256
    ∧ win0_7.xsize (grid0.coords t) (1 : Fin 2) = 256 ∧ win0_8.xsize (grid0.coords t) (1 : Fin 2) = 512
    ∧ win0_7.xsize (grid0.coords t) (0 : Fin 2) = min 1024 (50000 - 1024 * t.val)
    ∧ win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- On a moved row the x buffer reads the fetched block, whatever fills the rest. -/
theorem fill0_row {α : Type} (t : Fin cfg0.N) (d d' : S1024x256.Idx → α) (g : (win0_0.xblock (grid0.coords t)).Idx → α)
    (p : Fin 1024) (hp : p.val < win0_7.xsize (grid0.coords t) (0 : Fin 2)) (k : Fin 256) :
    win0_0.fill (grid0.coords t) d g (ix2 p k) = win0_0.fill (grid0.coords t) d' g (ix2 p k) := by
  obtain ⟨e0, -, -, e3, -⟩ := grid_facts t
  have hm : win0_0.moved (grid0.coords t) (ix2 p k) = true := (win0_0.moved_iff _ _).mpr fun a => by
    match a with
    | ⟨0, _⟩ => show p.val < win0_0.xsize (grid0.coords t) (0 : Fin 2); rw [e0]; exact hp
    | ⟨1, _⟩ => show k.val < win0_0.xsize (grid0.coords t) (1 : Fin 2); rw [e3]; exact k.isLt
  unfold Window.fill; rw [dif_pos hm, dif_pos hm]

/-- On a moved row the mean-neighbour buffer reads the fetched block, whatever fills the rest. -/
theorem fill1_row {α : Type} (t : Fin cfg0.N) (d d' : S1024x256.Idx → α) (g : (win0_1.xblock (grid0.coords t)).Idx → α)
    (p : Fin 1024) (hp : p.val < win0_7.xsize (grid0.coords t) (0 : Fin 2)) (k : Fin 256) :
    win0_1.fill (grid0.coords t) d g (ix2 p k) = win0_1.fill (grid0.coords t) d' g (ix2 p k) := by
  obtain ⟨-, e1, -, -, e4, -⟩ := grid_facts t
  have hm : win0_1.moved (grid0.coords t) (ix2 p k) = true := (win0_1.moved_iff _ _).mpr fun a => by
    match a with
    | ⟨0, _⟩ => show p.val < win0_1.xsize (grid0.coords t) (0 : Fin 2); rw [e1]; exact hp
    | ⟨1, _⟩ => show k.val < win0_1.xsize (grid0.coords t) (1 : Fin 2); rw [e4]; exact k.isLt
  unfold Window.fill; rw [dif_pos hm, dif_pos hm]

variable (m : (ℓ : Loc nD τ sig) → Buf (Elt Ideal) ℓ)

/-- On the rows a write-back moves, recon and hidden do not see what fills the input buffers past the arrays' end. -/
theorem row_local : RowLocal (F := Ideal) m := fun c t d0 d1 => by
  obtain ⟨-, -, e2, -⟩ := grid_facts t
  constructor
  · funext j
    have hy := eq_ix2 (n0 := 1024) (n1 := 256) (win0_7.xinj (grid0.coords t) j)
    show recon _ _ _ _ _ _ _ (win0_7.xinj (grid0.coords t) j) = recon _ _ _ _ _ _ _ (win0_7.xinj (grid0.coords t) j)
    rw [hy]
    unfold xin nin
    exact recon_row_congr _ _ _ _ _ _ _ _ _ _
      (fun k => fill0_row t _ _ _ _ (j 0).isLt k) (fun k => fill1_row t _ _ _ _ (j 0).isLt k) _
  · funext j
    have hy := eq_ix2 (n0 := 1024) (n1 := 512) (win0_8.xinj (grid0.coords t) j)
    have hj : (j 0).val < win0_7.xsize (grid0.coords t) (0 : Fin 2) := e2 ▸ (j 0).isLt
    show hidden _ _ _ _ _ (win0_8.xinj (grid0.coords t) j) = hidden _ _ _ _ _ (win0_8.xinj (grid0.coords t) j)
    rw [hy]
    unfold xin nin
    exact hidden_row_congr _ _ _ _ _ _ _ _
      (fun k => fill0_row t _ _ _ _ hj k) (fun k => fill1_row t _ _ _ _ hj k) _

end Cert.KernelIdeal.Body

end
-- ==== Proof.IdealHost.lean ====
/-
  What the region finds in the three arrays the host computes before it.

  The mean-neighbour array — the neighbour features scatter-added onto their destination rows, divided by the
  in-degree clipped below at one — is computed by the same host operations in the kernel's program and in the
  reference's, from the same three arguments (x, src, dst); so it is the reference's own stage for it, of the
  launch arrays.  The two bias rows are the bias vectors recast from [n] to [1, n].
-/
import proofs.«145262_j49563922596249_1_alg».proof.Proof.Gen.KernelIdeal.Frame
import proofs.«145262_j49563922596249_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL.Sem

section Mean

variable {F : FTy → Type} [FloatOps F]

/-- The mean-neighbour array of x, src, dst, spelled with the kernel program's own operations: gather the rows
    x[src] (a negative index wrapped once by 50000), scatter-add them onto the rows dst of a zero array, and divide
    row-wise by the scatter-added count of ones clipped below at one. -/
def meanOf (x0 : (⟨S50000x256, .f32⟩ : BufTy).Contents (Elt F)) (x1 x2 : (⟨S800000, .i32⟩ : BufTy).Contents (Elt F)) :
    (⟨S50000x256, .f32⟩ : BufTy).Contents (Elt F) :=
  Host.divf (Host.scatterAdd scatter_S50000x256_S800000x1_S800000x256_1_0_0_1 (broadcastInDim S50000x256 ![] bcast_S_S50000x256 (constant S_ .f32 0x00000000#32)) (broadcastInDim S800000x1 ![0] bcast_S800000_S800000x1_0 (x2)) (Host.gather gather_S50000x256_S800000x1_S800000x256_1_0_n_n_0_1_1256 (x0) (broadcastInDim S800000x1 ![0] bcast_S800000_S800000x1_0 (select (cmpi .slt (x1) (broadcastInDim S800000 ![] bcast_S_S800000 (constantI S_ 32 0#32))) (addi (x1) (broadcastInDim S800000 ![] bcast_S_S800000 (constantI S_ 32 50000#32))) (x1))))) (broadcastInDim S50000x256 ![0, 1] bcast_S50000x1_S50000x256_0_1 (broadcastInDim S50000x1 ![0] bcast_S50000_S50000x1_0 (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 (x2)) (broadcastInDim S800000 ![] bcast_S_S800000 (constant S_ .f32 0x3F800000#32))))))

variable (m : (ℓ : Loc nD τ sig) → Buf (Elt F) ℓ)

set_option maxHeartbeats 2000000 in
/-- The region finds the mean-neighbour array of the launch arrays. -/
theorem V_mean_term (c : Dev nD) :
    V m c main_v17 = meanOf (F := F) (m ((c : Thread nD τ).loc main_arg0)) (m ((c : Thread nD τ).loc main_arg1))
      (m ((c : Thread nD τ).loc main_arg2)) := by
  dsimp only [V]
  simp only [hostOps0, hostOps0_1, hostOps0_2, List.flatten_cons, List.flatten_nil, List.append_nil, List.cons_append,
    List.nil_append]
  unfold meanOf
  after_results_simp <;> rfl

/-- It is the reference's stage: the two programs spell the same operations. -/
theorem meanOf_eq_ref (x0 : (⟨S50000x256, .f32⟩ : BufTy).Contents (Elt F)) (x1 x2 : (⟨S800000, .i32⟩ : BufTy).Contents (Elt F)) :
    meanOf (F := F) x0 x1 x2 = Cert.ReferenceIdeal.Read.val_main_v17 (F := F) x0 x1 x2 := rfl

end Mean

variable (m : (ℓ : Loc nD τ sig) → Buf (Elt Ideal) ℓ)

/-- The mean-neighbour array as the region finds it: the reference's stage of the three launch arrays it reads. -/
theorem V_mean (c : Dev nD) :
    (V m c main_v17 : S50000x256.Idx → EReal)
      = Cert.ReferenceIdeal.Read.val_main_v17 (F := Ideal) (m ((c : Thread nD τ).loc main_arg0))
          (m ((c : Thread nD τ).loc main_arg1)) (m ((c : Thread nD τ).loc main_arg2)) :=
  (V_mean_term m c).trans (meanOf_eq_ref _ _ _)

/-- The same, at the reference the window itself names its array by. -/
theorem V_mean_arr (c : Dev nD) :
    (V m c (Pipeline.arrRef spec0 1) : S50000x256.Idx → EReal)
      = Cert.ReferenceIdeal.Read.val_main_v17 (F := Ideal) (m ((c : Thread nD τ).loc main_arg0))
          (m ((c : Thread nD τ).loc main_arg1)) (m ((c : Thread nD τ).loc main_arg2)) := V_mean m c

/-- The encoder bias row as the region finds it. -/
theorem V_benc (c : Dev nD) :
    (V m c main_v18 : S1x512.Idx → EReal)
      = shapeCast S1x512 (m ((c : Thread nD τ).loc main_arg5) : S512.Idx → EReal) shapeCasts_S512_S1x512 := by
  dsimp only [V]
  simp only [hostOps0, hostOps0_1, hostOps0_2, List.flatten_cons, List.flatten_nil, List.append_nil, List.cons_append,
    List.nil_append]
  after_results
  rfl

/-- The decoder bias row as the region finds it. -/
theorem V_bdec (c : Dev nD) :
    (V m c main_v19 : S1x256.Idx → EReal)
      = shapeCast S1x256 (m ((c : Thread nD τ).loc main_arg7) : S256.Idx → EReal) shapeCasts_S256_S1x256 := by
  dsimp only [V]
  simp only [hostOps0, hostOps0_1, hostOps0_2, List.flatten_cons, List.flatten_nil, List.append_nil, List.cons_append,
    List.nil_append]
  after_results
  rfl

end Cert.KernelIdeal.Body

end
-- ==== Proof.IdealFinal.lean ====
/-
  The two result arrays after the run, at the extended reals: the reference's own two stages of the launch arrays.

  Write A0 ... A7 for the eight launch arrays, mean for the mean-neighbour array (the reference's stage of A0, A1,
  A2), H for the reference's hidden layer max (A0 W_self + mean W_neigh + b_enc, 0) and R for its reconstruction
  H W_dec + b_dec.  At point t the body's hidden block, on a row p the write-back moves, reads row 1024 t + p of A0
  and of mean, so it is row 1024 t + p of H; the reconstruction block's row p is then row 1024 t + p of R.  Every row
  of the 50000 lies in the block of point (row / 1024), among the rows that point's write-back moves; so the
  result arrays end holding R and H.
-/
import proofs.«145262_j49563922596249_1_alg».proof.Proof.IdealRun
import proofs.«145262_j49563922596249_1_alg».proof.Proof.IdealLocal
import proofs.«145262_j49563922596249_1_alg».proof.Proof.IdealHost

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The reference's hidden layer of the launch arrays. -/
def refHidden (c : Dev nD) : S50000x512.Idx → EReal :=
  Cert.ReferenceIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The reference's reconstruction of the launch arrays. -/
def refRecon (c : Dev nD) : S50000x256.Idx → EReal :=
  Cert.ReferenceIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- A moved row p of point t is row 1024 t + p of the arrays. -/
theorem row_lt (t : Fin cfg0.N) (p : Fin 1024) (hp : p.val < win0_7.xsize (grid0.coords t) (0 : Fin 2)) :
    1024 * t.val + p.val < 50000 := by
  obtain ⟨-, -, -, -, -, -, -, e7, -⟩ := grid_facts t
  rw [e7] at hp; omega

/-! ## The input buffers read at coordinates -/

theorem xin_at (c : Dev nD) (t : Fin cfg0.N) (p : Fin 1024) (hp : p.val < win0_7.xsize (grid0.coords t) (0 : Fin 2)) (k : Fin 256) :
    xin m c t (ix2 p k) = (m ((c : Thread nD τ).loc main_arg0) : S50000x256.Idx → EReal) (ix2 ⟨1024 * t.val + p.val, row_lt t p hp⟩ k) := by
  obtain ⟨e0, -, -, e3, -, -, -, -, i0, i1, -⟩ := grid_facts t
  have hm : win0_0.moved (grid0.coords t) (ix2 p k) = true := (win0_0.moved_iff _ _).mpr fun a => by
    match a with
    | ⟨0, _⟩ => show p.val < win0_0.xsize (grid0.coords t) (0 : Fin 2); rw [e0]; exact hp
    | ⟨1, _⟩ => show k.val < win0_0.xsize (grid0.coords t) (1 : Fin 2); rw [e3]; exact k.isLt
  unfold xin Window.fill
  rw [dif_pos hm]
  show V m c main_arg0 (((cfg0.win 0).blk t).view.emb _) = _
  rw [V_main_arg0]
  refine congrArg _ (funext fun a => Fin.ext ?_)
  match a with
  | ⟨0, _⟩ => show win0_0.index t (0 : Fin 2) * 1024 + 1 * p.val = 1024 * t.val + p.val; rw [i0]; omega
  | ⟨1, _⟩ => show win0_0.index t (1 : Fin 2) * 256 + 1 * k.val = k.val; rw [i1]; omega

/-- Reading a block of any array through the mean-neighbour window's view reads the array at the embedded index. -/
theorem read_blk1 (X : S50000x256.Idx → EReal) (t : Fin cfg0.N) (y : (win0_1.xblock (grid0.coords t)).Idx) :
    ((cfg0.win 1).blk t).view.read (Elt Ideal) X y = X (((cfg0.win 1).blk t).view.emb y) := rfl

theorem nin_at (c : Dev nD) (t : Fin cfg0.N) (p : Fin 1024) (hp : p.val < win0_7.xsize (grid0.coords t) (0 : Fin 2)) (k : Fin 256) :
    nin m c t (ix2 p k)
      = Cert.ReferenceIdeal.Read.val_main_v17 (F := Ideal) (m ((c : Thread nD τ).loc main_arg0))
          (m ((c : Thread nD τ).loc main_arg1)) (m ((c : Thread nD τ).loc main_arg2)) (ix2 ⟨1024 * t.val + p.val, row_lt t p hp⟩ k) := by
  obtain ⟨-, e1, -, -, e4, -, -, -, -, -, i0, i1, -⟩ := grid_facts t
  have hm : win0_1.moved (grid0.coords t) (ix2 p k) = true := (win0_1.moved_iff _ _).mpr fun a => by
    match a with
    | ⟨0, _⟩ => show p.val < win0_1.xsize (grid0.coords t) (0 : Fin 2); rw [e1]; exact hp
    | ⟨1, _⟩ => show k.val < win0_1.xsize (grid0.coords t) (1 : Fin 2); rw [e4]; exact k.isLt
  unfold nin Window.fill
  rw [dif_pos hm]
  unfold iblk
  rw [V_mean_arr]
  refine (read_blk1 _ t _).trans (congrArg (Cert.ReferenceIdeal.Read.val_main_v17 (F := Ideal) (m ((c : Thread nD τ).loc main_arg0))
    (m ((c : Thread nD τ).loc main_arg1)) (m ((c : Thread nD τ).loc main_arg2))) (funext fun a => Fin.ext ?_))
  match a with
  | ⟨0, _⟩ => show win0_1.index t (0 : Fin 2) * 1024 + 1 * p.val = 1024 * t.val + p.val; rw [i0]; omega
  | ⟨1, _⟩ => show win0_1.index t (1 : Fin 2) * 256 + 1 * k.val = k.val; rw [i1]; omega

/-- The parameter buffers hold the whole parameter arrays. -/
theorem wself_at (c : Dev nD) (t : Fin cfg0.N) (k : Fin 256) (q : Fin 512) :
    (iblk m c 2 t : S256x512.Idx → EReal) (ix2 k q) = (m ((c : Thread nD τ).loc main_arg3) : S256x512.Idx → EReal) (ix2 k q) := by
  show V m c main_arg3 (((cfg0.win 2).blk t).view.emb (ix2 k q)) = _
  rw [V_main_arg3]
  refine congrArg _ (funext fun a => Fin.ext ?_)
  match a with
  | ⟨0, _⟩ => show win0_2.index t (0 : Fin 2) * 256 + 1 * k.val = k.val; show 0 * 256 + 1 * k.val = k.val; omega
  | ⟨1, _⟩ => show win0_2.index t (1 : Fin 2) * 512 + 1 * q.val = q.val; show 0 * 512 + 1 * q.val = q.val; omega

theorem wneigh_at (c : Dev nD) (t : Fin cfg0.N) (k : Fin 256) (q : Fin 512) :
    (iblk m c 3 t : S256x512.Idx → EReal) (ix2 k q) = (m ((c : Thread nD τ).loc main_arg4) : S256x512.Idx → EReal) (ix2 k q) := by
  show V m c main_arg4 (((cfg0.win 3).blk t).view.emb (ix2 k q)) = _
  rw [V_main_arg4]
  refine congrArg _ (funext fun a => Fin.ext ?_)
  match a with
  | ⟨0, _⟩ => show 0 * 256 + 1 * k.val = k.val; omega
  | ⟨1, _⟩ => show 0 * 512 + 1 * q.val = q.val; omega

theorem wdec_at (c : Dev nD) (t : Fin cfg0.N) (k : Fin 512) (q : Fin 256) :
    (iblk m c 5 t : S512x256.Idx → EReal) (ix2 k q) = (m ((c : Thread nD τ).loc main_arg6) : S512x256.Idx → EReal) (ix2 k q) := by
  show V m c main_arg6 (((cfg0.win 5).blk t).view.emb (ix2 k q)) = _
  rw [V_main_arg6]
  refine congrArg _ (funext fun a => Fin.ext ?_)
  match a with
  | ⟨0, _⟩ => show 0 * 512 + 1 * k.val = k.val; omega
  | ⟨1, _⟩ => show 0 * 256 + 1 * q.val = q.val; omega

theorem benc_at (c : Dev nD) (t : Fin cfg0.N) (q : Fin 512) :
    (iblk m c 4 t : S1x512.Idx → EReal) (ix2 (0 : Fin 1) q) = (m ((c : Thread nD τ).loc main_arg5) : S512.Idx → EReal) (ix1 q) := by
  show (V m c main_v18 : S1x512.Idx → EReal) (((cfg0.win 4).blk t).view.emb (ix2 (0 : Fin 1) q)) = _
  rw [V_benc]
  have e : ((cfg0.win 4).blk t).view.emb (ix2 (0 : Fin 1) q) = (ix2 (0 : Fin 1) q : S1x512.Idx) :=
    funext fun a => Fin.ext (by
      match a with
      | ⟨0, _⟩ => show 0 * 1 + 1 * 0 = 0; omega
      | ⟨1, _⟩ => show 0 * 512 + 1 * q.val = q.val; omega)
  rw [e]
  exact shapeCast_a_1a_apply _ _ (0 : Fin 1) q

theorem bdec_at (c : Dev nD) (t : Fin cfg0.N) (q : Fin 256) :
    (iblk m c 6 t : S1x256.Idx → EReal) (ix2 (0 : Fin 1) q) = (m ((c : Thread nD τ).loc main_arg7) : S256.Idx → EReal) (ix1 q) := by
  show (V m c main_v19 : S1x256.Idx → EReal) (((cfg0.win 6).blk t).view.emb (ix2 (0 : Fin 1) q)) = _
  rw [V_bdec]
  have e : ((cfg0.win 6).blk t).view.emb (ix2 (0 : Fin 1) q) = (ix2 (0 : Fin 1) q : S1x256.Idx) :=
    funext fun a => Fin.ext (by
      match a with
      | ⟨0, _⟩ => show 0 * 1 + 1 * 0 = 0; omega
      | ⟨1, _⟩ => show 0 * 256 + 1 * q.val = q.val; omega)
  rw [e]
  exact shapeCast_a_1a_apply _ _ (0 : Fin 1) q

/-! ## The stored blocks, on the moved rows, are the reference's stages -/

/-- Row p of the hidden block at point t, a moved row, is row 1024 t + p of the reference's hidden layer. -/
theorem hidden_at (c : Dev nD) (t : Fin cfg0.N) (p : Fin 1024) (hp : p.val < win0_7.xsize (grid0.coords t) (0 : Fin 2)) (q : Fin 512) :
    hidden (F := Ideal) (xin m c t) (nin m c t) (iblk m c 2 t) (iblk m c 3 t) (iblk m c 4 t) (ix2 p q)
      = refHidden m c (ix2 ⟨1024 * t.val + p.val, row_lt t p hp⟩ q) := by
  rw [hidden_apply]
  simp only [xin_at m c t p hp, nin_at m c t p hp, wself_at m c t, wneigh_at m c t, benc_at m c t]
  unfold refHidden
  rw [Cert.ReferenceIdeal.Read.val_main_v24_apply, Cert.ReferenceIdeal.Read.val_main_v23_apply, Cert.ReferenceIdeal.Read.val_main_v20_apply, Cert.ReferenceIdeal.Read.val_main_v18_apply,
    Cert.ReferenceIdeal.Read.val_main_v19_apply, Cert.ReferenceIdeal.Read.val_main_v22_apply, Cert.ReferenceIdeal.Read.val_main_v21_apply, Cert.ReferenceIdeal.Read.val_main_call1_v0_apply,
    Cert.ReferenceIdeal.Read.val_main_call1_cst_apply]
  simp only [Ideal.addf_def, Ideal.maximumf_def, Ideal.ofBits_def, Ideal.ofBits_zero_f32]
  refine congrArg₂ max (congrArg₂ (· + ·) (congrArg₂ (· + ·) (Finset.sum_congr rfl fun k _ => ?_) (Finset.sum_congr rfl fun k _ => ?_)) ?_) rfl
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

/-- Row p of the reconstruction block at point t, a moved row, is row 1024 t + p of the reference's reconstruction. -/
theorem recon_at (c : Dev nD) (t : Fin cfg0.N) (p : Fin 1024) (hp : p.val < win0_7.xsize (grid0.coords t) (0 : Fin 2)) (q : Fin 256) :
    recon (F := Ideal) (xin m c t) (nin m c t) (iblk m c 2 t) (iblk m c 3 t) (iblk m c 4 t) (iblk m c 5 t) (iblk m c 6 t) (ix2 p q)
      = refRecon m c (ix2 ⟨1024 * t.val + p.val, row_lt t p hp⟩ q) := by
  rw [recon_apply]
  simp only [hidden_at m c t p hp, wdec_at m c t, bdec_at m c t]
  unfold refRecon refHidden
  rw [Cert.ReferenceIdeal.Read.val_main_v28_apply, Cert.ReferenceIdeal.Read.val_main_v25_apply, Cert.ReferenceIdeal.Read.val_main_v27_apply, Cert.ReferenceIdeal.Read.val_main_v26_apply]
  simp only [Ideal.addf_def]
  refine congrArg₂ (· + ·) (Finset.sum_congr rfl fun k _ => ?_) ?_
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

/-! ## What each point writes back -/

/-- Point t writes back, into the reconstruction array, block t of the reference's reconstruction. -/
theorem flushed_recon (c : Dev nD) (t : Fin cfg0.N) :
    (dats m 0 c).flushed 7 t = ((cfg0.win 7).blk t).view.read (Elt Ideal) (refRecon m c) := by
  obtain ⟨-, -, -, -, -, e5, -, -, -, -, -, -, i0, i1, -⟩ := grid_facts t
  show (cfg0.win 7).cut (grid0.coords t) ((dats m 0 c).after 7 t) = _
  rw [after0_7]
  funext j
  have hp : (j 0).val < 1024 := Nat.lt_of_lt_of_le (j 0).isLt (win0_7.xsize_le (grid0.coords t) (0 : Fin 2))
  have hq : (j 1).val < 256 := e5 ▸ (j 1).isLt
  have e : win0_7.xinj (grid0.coords t) j = (ix2 (⟨(j 0).val, hp⟩ : Fin 1024) (⟨(j 1).val, hq⟩ : Fin 256) : S1024x256.Idx) :=
    funext fun a => by
      match a with
      | ⟨0, _⟩ => rfl
      | ⟨1, _⟩ => rfl
  show recon (F := Ideal) _ _ _ _ _ _ _ (win0_7.xinj (grid0.coords t) j) = refRecon m c (((cfg0.win 7).blk t).view.emb j)
  rw [e]
  refine (recon_at m c t ⟨(j 0).val, hp⟩ (j 0).isLt ⟨(j 1).val, hq⟩).trans ?_
  refine congrArg (refRecon m c) (funext fun a => Fin.ext ?_)
  match a with
  | ⟨0, _⟩ => show 1024 * t.val + (j 0).val = win0_7.index t (0 : Fin 2) * 1024 + 1 * (j 0).val; rw [i0]; omega
  | ⟨1, _⟩ => show (j 1).val = win0_7.index t (1 : Fin 2) * 256 + 1 * (j 1).val; rw [i1]; omega

/-- Point t writes back, into the hidden array, block t of the reference's hidden layer. -/
theorem flushed_hidden (c : Dev nD) (t : Fin cfg0.N) :
    (dats m 0 c).flushed 8 t = ((cfg0.win 8).blk t).view.read (Elt Ideal) (refHidden m c) := by
  obtain ⟨-, -, e2, -, -, -, e6, -, -, -, -, -, -, -, i0, i1⟩ := grid_facts t
  show (cfg0.win 8).cut (grid0.coords t) ((dats m 0 c).after 8 t) = _
  rw [after0_8]
  funext j
  have hj : (j 0).val < win0_7.xsize (grid0.coords t) (0 : Fin 2) := e2 ▸ (j 0).isLt
  have hp : (j 0).val < 1024 := Nat.lt_of_lt_of_le (j 0).isLt (win0_8.xsize_le (grid0.coords t) (0 : Fin 2))
  have hq : (j 1).val < 512 := e6 ▸ (j 1).isLt
  have e : win0_8.xinj (grid0.coords t) j = (ix2 (⟨(j 0).val, hp⟩ : Fin 1024) (⟨(j 1).val, hq⟩ : Fin 512) : S1024x512.Idx) :=
    funext fun a => by
      match a with
      | ⟨0, _⟩ => rfl
      | ⟨1, _⟩ => rfl
  show hidden (F := Ideal) _ _ _ _ _ (win0_8.xinj (grid0.coords t) j) = refHidden m c (((cfg0.win 8).blk t).view.emb j)
  rw [e]
  refine (hidden_at m c t ⟨(j 0).val, hp⟩ hj ⟨(j 1).val, hq⟩).trans ?_
  refine congrArg (refHidden m c) (funext fun a => Fin.ext ?_)
  match a with
  | ⟨0, _⟩ => show 1024 * t.val + (j 0).val = win0_8.index t (0 : Fin 2) * 1024 + 1 * (j 0).val; rw [i0]; omega
  | ⟨1, _⟩ => show (j 1).val = win0_8.index t (1 : Fin 2) * 512 + 1 * (j 1).val; rw [i1]; omega

/-! ## Every row is written back by the point its block belongs to -/

theorem cover_recon_arr (i : S50000x256.Idx) :
    ∃ t : Fin cfg0.N, (cfg0.win 7).flush t = true ∧ i ∈ ((cfg0.win 7).blk t).view.set := by
  have h0 : (i 0).val < 50000 := (i 0).isLt
  have h1 : (i 1).val < 256 := (i 1).isLt
  have hN : (i 0).val / 1024 < cfg0.N := by rw [show cfg0.N = 49 from N_0]; omega
  obtain ⟨t, ht⟩ : ∃ t : Fin cfg0.N, t.val = (i 0).val / 1024 := ⟨⟨_, hN⟩, rfl⟩
  obtain ⟨-, -, -, -, -, e5, -, e7, -, -, -, -, i0, i1, -⟩ := grid_facts t
  refine ⟨t, flush0_7 t, ?_⟩
  show i ∈ ((View.whole main_v20_0).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + win0_7.xsize (grid0.coords t) (0 : Fin 2)
    rw [i0, e7, ht]; omega
  | ⟨1, _⟩ =>
    show win0_7.index t (1 : Fin 2) * 256 ≤ (i 1).val ∧ (i 1).val < win0_7.index t (1 : Fin 2) * 256 + win0_7.xsize (grid0.coords t) (1 : Fin 2)
    rw [i1, e5]; omega

theorem cover_hidden_arr (i : S50000x512.Idx) :
    ∃ t : Fin cfg0.N, (cfg0.win 8).flush t = true ∧ i ∈ ((cfg0.win 8).blk t).view.set := by
  have h0 : (i 0).val < 50000 := (i 0).isLt
  have h1 : (i 1).val < 512 := (i 1).isLt
  have hN : (i 0).val / 1024 < cfg0.N := by rw [show cfg0.N = 49 from N_0]; omega
  obtain ⟨t, ht⟩ : ∃ t : Fin cfg0.N, t.val = (i 0).val / 1024 := ⟨⟨_, hN⟩, rfl⟩
  obtain ⟨-, -, e2, -, -, -, e6, e7, -, -, -, -, -, -, i0, i1⟩ := grid_facts t
  refine ⟨t, flush0_8 t, ?_⟩
  show i ∈ ((View.whole main_v20_1).slice (win0_8.rect t)).set
  rw [View.set_slice_whole, Rect.mem_set_unit]
  intro a
  match a with
  | ⟨0, _⟩ =>
    show win0_8.index t (0 : Fin 2) * 1024 ≤ (i 0).val ∧ (i 0).val < win0_8.index t (0 : Fin 2) * 1024 + win0_8.xsize (grid0.coords t) (0 : Fin 2)
    rw [i0, e2, e7, ht]; omega
  | ⟨1, _⟩ =>
    show win0_8.index t (1 : Fin 2) * 512 ≤ (i 1).val ∧ (i 1).val < win0_8.index t (1 : Fin 2) * 512 + win0_8.xsize (grid0.coords t) (1 : Fin 2)
    rw [i1, e6]; omega

/-! ## The result arrays after the run -/

theorem final_recon (c : Dev nD) : (dats m 0 c).arrAt 7 cfg0.N = refRecon m c :=
  (dats m 0 c).arrAt_eq_of_cover 7 (refRecon m c) (fun t _ => flushed_recon m c t) cover_recon_arr

theorem final_hidden (c : Dev nD) : (dats m 0 c).arrAt 8 cfg0.N = refHidden m c :=
  (dats m 0 c).arrAt_eq_of_cover 8 (refHidden m c) (fun t _ => flushed_hidden m c t) cover_hidden_arr

/-- Every weakly fair execution of the kernel's program terminates; the two result arrays end holding the
    reference's reconstruction and hidden layer of the launch arrays, and the eight arguments as launched. -/
theorem run : θ_run defs (onTc (τ := τ) (main (F := Ideal))) ⟨m, fun _ => 0, ρ⟩ fun r => ∀ c : Dev nD,
      r.2.mem ((c.tc : Thread nD τ).loc main_v20_0) = refRecon m c
      ∧ r.2.mem ((c.tc : Thread nD τ).loc main_v20_1) = refHidden m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 7).trans (final_recon m c), ((h c).1 8).trans (final_hidden m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c)⟩)
    (run_main m ρ (row_local m))

end Cert.KernelIdeal.Body

end
-- ==== Proof.lean ====
/-
  A GraphSAGE auto-encoder: the Pallas kernel against its jnp reference, equal at the extended reals.

  Both programs first compute, on the host and by the same operations, the mean of each node's neighbour features
  (the rows x[src] scatter-added onto the rows dst, divided by the in-degree clipped below at one).  The reference
  then computes  H = max (x W_self + mean W_neigh + b_enc, 0)  and  R = H W_dec + b_dec  on whole arrays.  The
  kernel computes the same two arrays 1024 rows at a time over a grid of 49 points, its operands cast to bf16 and its
  products accumulated in f32 — at the extended reals a change of format is the identity, so each block is the
  corresponding block of H and of R.  The last block overhangs the 50000 rows by 176: its fetches fill, and its
  write-backs move, only the first 848 rows of the staging buffers.  What lies past them in the input buffers is
  unspecified; since row p of H and of R reads the two row-blocked inputs through their row p only, the rows that
  are written back never see it.

  The three frames (each program runs to the end without a fault and leaves its eight arguments as launched): for the
  two kernel programs from the pipeline's frame run, which needs nothing of the values the body computes; for the
  reference from its run.  The idealization rewrote no operation, so there is nothing to preserve.  For the
  equivalence both runs are stated at the same two arrays, the reference's stages H and R of the launch arrays.
-/
import proofs.«145262_j49563922596249_1_alg».proof.Defs
import proofs.«145262_j49563922596249_1_alg».proof.Proof.Gen.Kernel
import proofs.«145262_j49563922596249_1_alg».proof.Proof.Gen.KernelIdeal
import proofs.«145262_j49563922596249_1_alg».proof.Proof.Gen.ReferenceIdeal
import proofs.«145262_j49563922596249_1_alg».proof.Proof.Gen.ReferenceIdeal.Run
import proofs.«145262_j49563922596249_1_alg».proof.Proof.Gen.ReferenceIdeal.Read
import proofs.«145262_j49563922596249_1_alg».proof.Proof.Gen.Pre_finite_inputs
import proofs.«145262_j49563922596249_1_alg».proof.Proof.BitsRun
import proofs.«145262_j49563922596249_1_alg».proof.Proof.IdealFinal
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Body.frame (F := Bits) m ρ

/-- So does the idealized kernel program. -/
theorem frame_kernelIdeal : Cert.frame_KernelIdeal := fun m ρ _ => Cert.KernelIdeal.Body.frame (F := Ideal) m ρ

/-- So does the idealized reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eight arguments both idealized programs end with the reconstruction R and the
    hidden layer H of those arguments. -/
theorem algebraic : Cert.algebraic_KernelIdeal_ReferenceIdeal := by
  intro m ρ m' ρ' _ hagree
  refine ⟨fun c => Cert.KernelIdeal.Body.refRecon m c, fun c => Cert.KernelIdeal.Body.refHidden m c,
    Cert.KernelIdeal.Body.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v28_eq, h0, h1, h2, h3, h4, h5, h6, h7]
    rfl
  · obtain ⟨h0, h1, h2, h3, h4, h5, h6, h7⟩ := hagree c
    rw [Cert.ReferenceIdeal.Read.val_main_v24_eq, h0, h1, h2, h3, h4, h5]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
